-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S5x64x64 : Shape := ⟨3, ![5, 64, 64]⟩
abbrev S5x64 : Shape := ⟨2, ![5, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_

variable [Facts]

def fn_part1 {F : FTy → Type} [FloatOps F] (main_v13 : IVec S_ 1) (main_v16 : IVec S5x64 1) : IVec S_ 1 :=
  let main_c_5 : IVec S_ 1 := constantI S_ 1 1#1
  let main_v17 : IVec S_ 1 := (fun x v => Host.reduce IntOp.andi x v reducesTo_S5x64_S_d0_1 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : IVec S2000000 32) (main_arg3 : IVec S2000000 32) (main_arg4 : FVec F S5x64x64 .f32) (main_arg5 : FVec F S5x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S5x64x64 .f32 := Host.absf main_arg4
  let main_cst_2 : FVec F S_ .f32 := constant S_ .f32 0x7F800000#32
  let main_v10 : FVec F S5x64x64 .f32 := broadcastInDim S5x64x64 ![] bcast_S_S5x64x64 main_cst_2
  let main_v11 : IVec S5x64x64 1 := cmpf .olt main_v9 main_v10
  let main_c_3 : IVec S_ 1 := constantI S_ 1 1#1
  let main_v12 : IVec S_ 1 := (fun x v => Host.reduce IntOp.andi x v reducesTo_S5x64x64_S_d0_1_2 h_S_) main_v11 main_c_3
  let main_v13 : IVec S_ 1 := andi main_v8 main_v12
  let main_v14 : FVec F S5x64 .f32 := Host.absf main_arg5
  let main_cst_4 : FVec F S_ .f32 := constant S_ .f32 0x7F800000#32
  let main_v15 : FVec F S5x64 .f32 := broadcastInDim S5x64 ![] bcast_S_S5x64 main_cst_4
  let main_v16 : IVec S5x64 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S2000000 : Shape := ⟨1, ![2000000]⟩
abbrev S5x64x64 : Shape := ⟨3, ![5, 64, 64]⟩
abbrev S5x64 : Shape := ⟨2, ![5, 64]⟩
abbrev S_ : Shape := ⟨0, ![]⟩
abbrev S2000000x1 : Shape := ⟨2, ![2000000, 1]⟩
abbrev S2000000x64 : Shape := ⟨2, ![2000000, 64]⟩
abbrev S64x5x64 : Shape := ⟨3, ![64, 5, 64]⟩
abbrev S64x320 : Shape := ⟨2, ![64, 320]⟩
abbrev S1x320 : Shape := ⟨2, ![1, 320]⟩
abbrev S5x2000000 : Shape := ⟨2, ![5, 2000000]⟩
abbrev S16000x64 : Shape := ⟨2, ![16000, 64]⟩
abbrev S5x16000 : Shape := ⟨2, ![5, 16000]⟩
abbrev S3200x64 : Shape := ⟨2, ![3200, 64]⟩
abbrev S3200x320 : Shape := ⟨2, ![3200, 320]⟩
abbrev S3200 : Shape := ⟨1, ![3200]⟩
abbrev S1x3200 : Shape := ⟨2, ![1, 3200]⟩
abbrev S2000000x5 : Shape := ⟨2, ![2000000, 5]⟩

abbrev nBuf : Space → Nat
  | .hbm => 31
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S5x64x64, .f32⟩
  | .hbm, ⟨5, _⟩ => ⟨S5x64, .f32⟩
  | .hbm, ⟨6, _⟩ => ⟨S100000x64, .bf16⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .bf16⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x64, .f32⟩
  | .hbm, ⟨25, _⟩ => ⟨S64x5x64, .f32⟩
  | .hbm, ⟨26, _⟩ => ⟨S64x320, .f32⟩
  | .hbm, ⟨27, _⟩ => ⟨S64x320, .bf16⟩
  | .hbm, ⟨28, _⟩ => ⟨S1x320, .f32⟩
  | .hbm, ⟨29, _⟩ => ⟨S5x2000000, .f32⟩
  | .hbm, ⟨30, _⟩ => ⟨S2000000x5, .f32⟩
  | .local _ .vmem, ⟨0, _⟩ => ⟨S16000x64, .bf16⟩
  | .local _ .vmem, ⟨1, _⟩ => ⟨S16000x64, .bf16⟩
  | .local _ .vmem, ⟨2, _⟩ => ⟨S16000x64, .f32⟩
  | .local _ .vmem, ⟨3, _⟩ => ⟨S16000x64, .f32⟩
  | .local _ .vmem, ⟨4, _⟩ => ⟨S64x320, .bf16⟩
  | .local _ .vmem, ⟨5, _⟩ => ⟨S1x320, .f32⟩
  | .local _ .vmem, ⟨6, _⟩ => ⟨S5x16000, .f32⟩
  | .local _ .vmem, ⟨7, _⟩ => ⟨S5x16000, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5x16000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S2000000 : S_.BroadcastsInDim S2000000 (![] : Fin 0 → Fin S2000000.rank)
  bcast_S2000000_S2000000x1_0 : S2000000.BroadcastsInDim S2000000x1 (![0] : Fin 1 → Fin S2000000x1.rank)
  transposes_S5x64x64_S64x5x64_2_0_1 : S5x64x64.Transposes [2, 0, 1] S64x5x64
  shapeCasts_S64x5x64_S64x320 : S64x5x64.ShapeCasts S64x320
  shapeCasts_S5x64_S1x320 : S5x64.ShapeCasts S1x320
  inb_S64x320_S64x320_0_0 : ∀ a, (![0, 0] : Fin 2 → Nat) a + S64x320.size a ≤ S64x320.size a
  h_S64x320 : 0 < S64x320.numel
  shapeCasts_S64x320_S64x320 : S64x320.ShapeCasts S64x320
  inb_S1x320_S1x320_0_0 : ∀ a, (![0, 0] : Fin 2 → Nat) a + S1x320.size a ≤ S1x320.size a
  h_S1x320 : 0 < S1x320.numel
  shapeCasts_S1x320_S1x320 : S1x320.ShapeCasts S1x320
  inb_S16000x64_S3200x64_0_0 : ∀ a, (![0, 0] : Fin 2 → Nat) a + S3200x64.size a ≤ S16000x64.size a
  h_S3200x64 : 0 < S3200x64.numel
  shapeCasts_S3200x64_S3200x64 : S3200x64.ShapeCasts S3200x64
  broadcasts_S1x320_S3200x320 : S1x320.Broadcasts S3200x320
  slices_S3200x320_o0_0_S3200x64 : S3200x320.Slices ![0, 0] S3200x64
  reduces_S3200x64_S3200 : S3200x64.Reduces [1] S3200
  inb_S5x16000_S1x3200_0_0 : ∀ a, (![0, 0] : Fin 2 → Nat) a + S1x3200.size a ≤ S5x16000.size a
  h_S1x3200 : 0 < S1x3200.numel
  shapeCasts_S1x3200_S3200 : S1x3200.ShapeCasts S3200
  shapeCasts_S3200_S1x3200 : S3200.ShapeCasts S1x3200
  slices_S3200x320_o0_64_S3200x64 : S3200x320.Slices ![0, 64] S3200x64
  inb_S5x16000_S1x3200_1_0 : ∀ a, (![1, 0] : Fin 2 → Nat) a + S1x3200.size a ≤ S5x16000.size a
  slices_S3200x320_o0_128_S3200x64 : S3200x320.Slices ![0, 128] S3200x64
  inb_S5x16000_S1x3200_2_0 : ∀ a, (![2, 0] : Fin 2 → Nat) a + S1x3200.size a ≤ S5x16000.size a
  slices_S3200x320_o0_192_S3200x64 : S3200x320.Slices ![0, 192] S3200x64
  inb_S5x16000_S1x3200_3_0 : ∀ a, (![3, 0] : Fin 2 → Nat) a + S1x3200.size a ≤ S5x16000.size a
  slices_S3200x320_o0_256_S3200x64 : S3200x320.Slices ![0, 256] S3200x64
  inb_S5x16000_S1x3200_4_0 : ∀ a, (![4, 0] : Fin 2 → Nat) a + S1x3200.size a ≤ S5x16000.size a
  inb_S16000x64_S3200x64_3200_0 : ∀ a, (![3200, 0] : Fin 2 → Nat) a + S3200x64.size a ≤ S16000x64.size a
  inb_S5x16000_S1x3200_0_3200 : ∀ a, (![0, 3200] : Fin 2 → Nat) a + S1x3200.size a ≤ S5x16000.size a
  inb_S5x16000_S1x3200_1_3200 : ∀ a, (![1, 3200] : Fin 2 → Nat) a + S1x3200.size a ≤ S5x16000.size a
  inb_S5x16000_S1x3200_2_3200 : ∀ a, (![2, 3200] : Fin 2 → Nat) a + S1x3200.size a ≤ S5x16000.size a
  inb_S5x16000_S1x3200_3_3200 : ∀ a, (![3, 3200] : Fin 2 → Nat) a + S1x3200.size a ≤ S5x16000.size a
  inb_S5x16000_S1x3200_4_3200 : ∀ a, (![4, 3200] : Fin 2 → Nat) a + S1x3200.size a ≤ S5x16000.size a
  inb_S16000x64_S3200x64_6400_0 : ∀ a, (![6400, 0] : Fin 2 → Nat) a + S3200x64.size a ≤ S16000x64.size a
  inb_S5x16000_S1x3200_0_6400 : ∀ a, (![0, 6400] : Fin 2 → Nat) a + S1x3200.size a ≤ S5x16000.size a
  inb_S5x16000_S1x3200_1_6400 : ∀ a, (![1, 6400] : Fin 2 → Nat) a + S1x3200.size a ≤ S5x16000.size a
  inb_S5x16000_S1x3200_2_6400 : ∀ a, (![2, 6400] : Fin 2 → Nat) a + S1x3200.size a ≤ S5x16000.size a
  inb_S5x16000_S1x3200_3_6400 : ∀ a, (![3, 6400] : Fin 2 → Nat) a + S1x3200.size a ≤ S5x16000.size a
  inb_S5x16000_S1x3200_4_6400 : ∀ a, (![4, 6400] : Fin 2 → Nat) a + S1x3200.size a ≤ S5x16000.size a
  inb_S16000x64_S3200x64_9600_0 : ∀ a, (![9600, 0] : Fin 2 → Nat) a + S3200x64.size a ≤ S16000x64.size a
  inb_S5x16000_S1x3200_0_9600 : ∀ a, (![0, 9600] : Fin 2 → Nat) a + S1x3200.size a ≤ S5x16000.size a
  inb_S5x16000_S1x3200_1_9600 : ∀ a, (![1, 9600] : Fin 2 → Nat) a + S1x3200.size a ≤ S5x16000.size a
  inb_S5x16000_S1x3200_2_9600 : ∀ a, (![2, 9600] : Fin 2 → Nat) a + S1x3200.size a ≤ S5x16000.size a
  inb_S5x16000_S1x3200_3_9600 : ∀ a, (![3, 9600] : Fin 2 → Nat) a + S1x3200.size a ≤ S5x16000.size a
  inb_S5x16000_S1x3200_4_9600 : ∀ a, (![4, 9600] : Fin 2 → Nat) a + S1x3200.size a ≤ S5x16000.size a
  inb_S16000x64_S3200x64_12800_0 : ∀ a, (![12800, 0] : Fin 2 → Nat) a + S3200x64.size a ≤ S16000x64.size a
  inb_S5x16000_S1x3200_0_12800 : ∀ a, (![0, 12800] : Fin 2 → Nat) a + S1x3200.size a ≤ S5x16000.size a
  inb_S5x16000_S1x3200_1_12800 : ∀ a, (![1, 12800] : Fin 2 → Nat) a + S1x3200.size a ≤ S5x16000.size a
  inb_S5x16000_S1x3200_2_12800 : ∀ a, (![2, 12800] : Fin 2 → Nat) a + S1x3200.size a ≤ S5x16000.size a
  inb_S5x16000_S1x3200_3_12800 : ∀ a, (![3, 12800] : Fin 2 → Nat) a + S1x3200.size a ≤ S5x16000.size a
  inb_S5x16000_S1x3200_4_12800 : ∀ a, (![4, 12800] : Fin 2 → Nat) a + S1x3200.size a ≤ S5x16000.size a
  transposes_S5x2000000_S2000000x5_1_0 : S5x2000000.Transposes [1, 0] S2000000x5
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  dot_S3200x64_S64x320_S3200x320_1_0_0_1_n_n_wf : DotDims.WF S3200x64 S64x320 S3200x320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S2000000x64.size a
  hwx0_0 : ∀ i : grid0.Coords, EltTy.bits .bf16 = 32 ∨ (Rect.block (s := S2000000x64) S16000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S2000000x64.size a
  hwx0_1 : ∀ i : grid0.Coords, EltTy.bits .f32 = 32 ∨ (Rect.block (s := S2000000x64) S16000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x320.size a ≤ S64x320.size a
  hwx0_2 : ∀ i : grid0.Coords, EltTy.bits .bf16 = 32 ∨ (Rect.block (s := S64x320) S64x320.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x320.size a ≤ S1x320.size a
  hwx0_3 : ∀ i : grid0.Coords, EltTy.bits .f32 = 32 ∨ (Rect.block (s := S1x320) S1x320.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5x16000.size a ≤ S5x2000000.size a
  hwx0_4 : ∀ i : grid0.Coords, EltTy.bits .f32 = 32 ∨ (Rect.block (s := S5x2000000) S5x16000.size (cc0_transform_4 i) (hinb0_4 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def dot_S3200x64_S64x320_S3200x320_1_0_0_1_n_n : DotDims S3200x64 S64x320 S3200x320 where
  lhsContracting := [1]
  rhsContracting := [0]
  lhsNonContracting := [0]
  rhsNonContracting := [1]
  lhsBatch := []
  rhsBatch := []
  wf := dot_S3200x64_S64x320_S3200x320_1_0_0_1_n_n_wf

abbrev win0_0 : Pipeline.Window sig grid0 :=
  Pipeline.Window.ofSpec (Memref.whole main_v7) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5x16000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S5x64x64 : Shape := ⟨3, ![5, 64, 64]⟩
abbrev S5x64 : Shape := ⟨2, ![5, 64]⟩
abbrev S_ : Shape := ⟨0, ![]⟩
abbrev S2000000x1 : Shape := ⟨2, ![2000000, 1]⟩
abbrev S2000000x64 : Shape := ⟨2, ![2000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000000x5 : Shape := ⟨2, ![2000000, 5]⟩

abbrev nBuf : Space → Nat
  | .hbm => 90
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S5x64x64, .f32⟩
  | .hbm, ⟨5, _⟩ => ⟨S5x64, .f32⟩
  | .hbm, ⟨6, _⟩ => ⟨S_, .i32⟩
  | .hbm, ⟨7, _⟩ => ⟨S2000000, .i32⟩
  | .hbm, ⟨8, _⟩ => ⟨S2000000, .i1⟩
  | .hbm, ⟨9, _⟩ => ⟨S_, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S2000000x1, .i32⟩
  | .hbm, ⟨14, _⟩ => ⟨S2000000x64, .f32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000x64, .f32⟩
  | .hbm, ⟨24, _⟩ => ⟨S1x64x64, .f32⟩
  | .hbm, ⟨25, _⟩ => ⟨S64x64, .f32⟩
  | .hbm, ⟨26, _⟩ => ⟨S64x64, .f32⟩
  | .hbm, ⟨27, _⟩ => ⟨S2000000x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S2000000x64, .f32⟩
  | .hbm, ⟨32, _⟩ => ⟨S2000000x64, .f32⟩
  | .hbm, ⟨33, _⟩ => ⟨S2000000x64, .f32⟩
  | .hbm, ⟨34, _⟩ => ⟨S_, .f32⟩
  | .hbm, ⟨35, _⟩ => ⟨S2000000, .f32⟩
  | .hbm, ⟨36, _⟩ => ⟨S1x64x64, .f32⟩
  | .hbm, ⟨37, _⟩ => ⟨S64x64, .f32⟩
  | .hbm, ⟨38, _⟩ => ⟨S64x64, .f32⟩
  | .hbm, ⟨39, _⟩ => ⟨S2000000x64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S2000000x64, .f32⟩
  | .hbm, ⟨44, _⟩ => ⟨S2000000x64, .f32⟩
  | .hbm, ⟨45, _⟩ => ⟨S2000000x64, .f32⟩
  | .hbm, ⟨46, _⟩ => ⟨S_, .f32⟩
  | .hbm, ⟨47, _⟩ => ⟨S2000000, .f32⟩
  | .hbm, ⟨48, _⟩ => ⟨S1x64x64, .f32⟩
  | .hbm, ⟨49, _⟩ => ⟨S64x64, .f32⟩
  | .hbm, ⟨50, _⟩ => ⟨S64x64, .f32⟩
  | .hbm, ⟨51, _⟩ => ⟨S2000000x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S2000000x64, .f32⟩
  | .hbm, ⟨56, _⟩ => ⟨S2000000x64, .f32⟩
  | .hbm, ⟨57, _⟩ => ⟨S2000000x64, .f32⟩
  | .hbm, ⟨58, _⟩ => ⟨S_, .f32⟩
  | .hbm, ⟨59, _⟩ => ⟨S2000000, .f32⟩
  | .hbm, ⟨60, _⟩ => ⟨S1x64x64, .f32⟩
  | .hbm, ⟨61, _⟩ => ⟨S64x64, .f32⟩
  | .hbm, ⟨62, _⟩ => ⟨S64x64, .f32⟩
  | .hbm, ⟨63, _⟩ => ⟨S2000000x64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S2000000x64, .f32⟩
  | .hbm, ⟨68, _⟩ => ⟨S2000000x64, .f32⟩
  | .hbm, ⟨69, _⟩ => ⟨S2000000x64, .f32⟩
  | .hbm, ⟨70, _⟩ => ⟨S_, .f32⟩
  | .hbm, ⟨71, _⟩ => ⟨S2000000, .f32⟩
  | .hbm, ⟨72, _⟩ => ⟨S1x64x64, .f32⟩
  | .hbm, ⟨73, _⟩ => ⟨S64x64, .f32⟩
  | .hbm, ⟨74, _⟩ => ⟨S64x64, .f32⟩
  | .hbm, ⟨75, _⟩ => ⟨S2000000x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S2000000x64, .f32⟩
  | .hbm, ⟨80, _⟩ => ⟨S2000000x64, .f32⟩
  | .hbm, ⟨81, _⟩ => ⟨S2000000x64, .f32⟩
  | .hbm, ⟨82, _⟩ => ⟨S_, .f32⟩
  | .hbm, ⟨83, _⟩ => ⟨S2000000, .f32⟩
  | .hbm, ⟨84, _⟩ => ⟨S2000000x1, .f32⟩
  | .hbm, ⟨85, _⟩ => ⟨S2000000x1, .f32⟩
  | .hbm, ⟨86, _⟩ => ⟨S2000000x1, .f32⟩
  | .hbm, ⟨87, _⟩ => ⟨S2000000x1, .f32⟩
  | .hbm, ⟨88, _⟩ => ⟨S2000000x1, .f32⟩
  | .hbm, ⟨89, _⟩ => ⟨S2000000x5, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S5x64x64_S1x64x64_0_0_0 : S5x64x64.Slices ![0, 0, 0] S1x64x64
  shapeCasts_S1x64x64_S64x64 : S1x64x64.ShapeCasts S64x64
  transposes_S64x64_S64x64_1_0 : S64x64.Transposes [1, 0] S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  reducesTo_S2000000x64_S2000000_d1 : S2000000x64.ReducesTo [1] S2000000
  h_S_ : 0 < S_.numel
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  concatenates_S2000000x1_S2000000x1_S2000000x1_S2000000x1_S2000000x1_S2000000x5_d1 : Shape.Concatenates [S2000000x1, S2000000x1, S2000000x1, S2000000x1, S2000000x1] S2000000x5 1
  gather_S100000x64_S2000000x1_S2000000x64_1_0_n_n_0_1_164_wf : GatherDims.WF S100000x64 S2000000x1 S2000000x64 [1] [0] [] [0] [] 1 ![1, 64]
  gather_S50000x64_S2000000x1_S2000000x64_1_0_n_n_0_1_164_wf : GatherDims.WF S50000x64 S2000000x1 S2000000x64 [1] [0] [] [0] [] 1 ![1, 64]
  dot_S2000000x64_S64x64_S2000000x64_1_0_0_1_n_n_wf : DotDims.WF S2000000x64 S64x64 S2000000x64 [1] [0] [0] [1] [] []

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf

class Facts : Prop extends Facts₀ where

variable [Facts]
-- ==== Proof.Chunk.lean ====
/-
  The arithmetic the kernel body performs on one chunk of 3200 edges, as two pure functions, and what they
  compute on the extended reals.

  * `affine wt bc eu`: the chunk's user rows `eu` (3200 × 64) times the stacked weights `wt` (64 × 320, the
    five relations side by side) plus the stacked bias row `bc` (1 × 320) on every row.  At (q, n) it is
    `(∑ k, eu q k * wt k n) + bc 0 n`.
  * `rowOut off acc ei`: the 64 columns of `acc` starting at column `off` (one relation's slab), multiplied
    entry by entry with the chunk's item rows `ei` and summed along each row; the 3200 sums laid out as one
    1 × 3200 row.  At (0, q) it is `∑ j, acc q (off + j) * ei q j`.
-/
import proofs.«153297_j80315888435313_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Chunk

open Cert.KernelIdeal Cert.KernelIdeal.Gen Idealize.ShloMosaic Idealize.ShloMosaic.ValueIdx

section AnyInstance
variable {F : FTy → Type} [FloatOps F]

/-- A chunk's user rows times the stacked weights, plus the stacked bias row on every row. -/
def affine (wt : FVec F S64x320 .bf16) (bc : FVec F S1x320 .f32) (eu : FVec F S3200x64 .bf16) : FVec F S3200x320 .f32 :=
  addf (matmul dot_S3200x64_S64x320_S3200x320_1_0_0_1_n_n none eu wt (constant S3200x320 .f32 0x00000000#32))
    (broadcastTo S3200x320 bc broadcasts_S1x320_S3200x320)

/-- One relation's slab of `acc` (64 columns from `off`) paired with the item rows and summed along each row,
    as the 1 × 3200 row the body stores. -/
def rowOut (off : Nat) (hs : S3200x320.Slices ![0, off] S3200x64) (acc : FVec F S3200x320 .f32) (ei : FVec F S3200x64 .f32) :
    FVec F S1x3200 .f32 :=
  shapeCast S1x3200
    (multiReduction .add [1] S3200 (mulf (extractStridedSlice S3200x64 ![0, off] acc hs) ei) 0x00000000#32
      reduces_S3200x64_S3200 (.inl rfl) rfl)
    shapeCasts_S3200_S1x3200

end AnyInstance

/-! ## The two functions on the extended reals -/

/-- The left operand's index of the chunk product keeps the output's row … -/
theorem lhs_row (i : S3200x320.Idx) (p : dot_S3200x64_S64x320_S3200x320_1_0_0_1_n_n.contr.Idx) :
    (dot_S3200x64_S64x320_S3200x320_1_0_0_1_n_n.lhsIdx i p 0).val = (i 0).val := by
  unfold DotDims.lhsIdx
  rw [dif_neg (show ¬(0 : Fin S3200x64.rank) ∈ dot_S3200x64_S64x320_S3200x320_1_0_0_1_n_n.lhsBatch by decide),
    dif_pos (show (0 : Fin S3200x64.rank) ∈ dot_S3200x64_S64x320_S3200x320_1_0_0_1_n_n.lhsNonContracting by decide)]
  rfl
/-- … and takes the contraction position as its column; -/
theorem lhs_col (i : S3200x320.Idx) (p : dot_S3200x64_S64x320_S3200x320_1_0_0_1_n_n.contr.Idx) :
    (dot_S3200x64_S64x320_S3200x320_1_0_0_1_n_n.lhsIdx i p 1).val = (p ⟨0, by decide⟩).val :=
  dot_S3200x64_S64x320_S3200x320_1_0_0_1_n_n.lhsIdx_val_of_single rfl i p
/-- the right operand's takes the contraction position as its row … -/
theorem rhs_row (i : S3200x320.Idx) (p : dot_S3200x64_S64x320_S3200x320_1_0_0_1_n_n.contr.Idx) :
    (dot_S3200x64_S64x320_S3200x320_1_0_0_1_n_n.rhsIdx i p 0).val = (p ⟨0, by decide⟩).val :=
  dot_S3200x64_S64x320_S3200x320_1_0_0_1_n_n.rhsIdx_val_of_single rfl i p
/-- … and keeps the output's column. -/
theorem rhs_col (i : S3200x320.Idx) (p : dot_S3200x64_S64x320_S3200x320_1_0_0_1_n_n.contr.Idx) :
    (dot_S3200x64_S64x320_S3200x320_1_0_0_1_n_n.rhsIdx i p 1).val = (i 1).val := by
  unfold DotDims.rhsIdx
  rw [dif_neg (show ¬(1 : Fin S64x320.rank) ∈ dot_S3200x64_S64x320_S3200x320_1_0_0_1_n_n.rhsBatch by decide),
    dif_pos (show (1 : Fin S64x320.rank) ∈ dot_S3200x64_S64x320_S3200x320_1_0_0_1_n_n.rhsNonContracting by decide)]
  rfl

/-- So at output (q, n) and contraction position k the product reads the user rows at (q, k) … -/
theorem lhs_at (q : Fin 3200) (n : Fin 320) (k : Fin 64) :
    dot_S3200x64_S64x320_S3200x320_1_0_0_1_n_n.lhsIdx (ix2 q n)
        ((contrEquiv1 dot_S3200x64_S64x320_S3200x320_1_0_0_1_n_n 64 rfl rfl).symm k) = ix2 q k := by
  have hk := contrEquiv1_symm_val dot_S3200x64_S64x320_S3200x320_1_0_0_1_n_n 64 rfl rfl k
  funext a
  apply Fin.ext
  match a with
  | ⟨0, _⟩ => exact lhs_row _ _
  | ⟨1, _⟩ => exact (lhs_col _ _).trans hk

/-- … and the weights at (k, n). -/
theorem rhs_at (q : Fin 3200) (n : Fin 320) (k : Fin 64) :
    dot_S3200x64_S64x320_S3200x320_1_0_0_1_n_n.rhsIdx (ix2 q n)
        ((contrEquiv1 dot_S3200x64_S64x320_S3200x320_1_0_0_1_n_n 64 rfl rfl).symm k) = ix2 k n := by
  have hk := contrEquiv1_symm_val dot_S3200x64_S64x320_S3200x320_1_0_0_1_n_n 64 rfl rfl k
  funext a
  apply Fin.ext
  match a with
  | ⟨0, _⟩ => exact (rhs_row _ _).trans hk
  | ⟨1, _⟩ => exact rhs_col _ _

/-- `affine` at row `q`, column `n`: the row's product with column `n` of the weights, plus the bias there. -/
theorem affine_apply (wt : FVec Ideal S64x320 .bf16) (bc : FVec Ideal S1x320 .f32) (eu : FVec Ideal S3200x64 .bf16)
    (q : Fin 3200) (n : Fin 320) :
    affine wt bc eu (ix2 q n) = (∑ k : Fin 64, eu (ix2 q k) * wt (ix2 k n)) + bc (ix2 (0 : Fin 1) n) := by
  unfold affine
  rw [addf_apply]
  have hm : matmul dot_S3200x64_S64x320_S3200x320_1_0_0_1_n_n none eu wt (constant S3200x320 .f32 0x00000000#32) (ix2 q n)
      = ∑ k : Fin 64, eu (ix2 q k) * wt (ix2 k n) := by
    refine (Ideal.matmul_constant_zero_apply dot_S3200x64_S64x320_S3200x320_1_0_0_1_n_n none eu wt (ix2 q n)).trans ?_
    rw [← Equiv.sum_comp (contrEquiv1 dot_S3200x64_S64x320_S3200x320_1_0_0_1_n_n 64 rfl rfl).symm]
    refine Finset.sum_congr rfl fun k _ => ?_
    rw [lhs_at, rhs_at]
  have hb : broadcastTo S3200x320 bc broadcasts_S1x320_S3200x320 (ix2 q n) = bc (ix2 (0 : Fin 1) n) :=
    broadcastTo_apply bc broadcasts_S1x320_S3200x320 (ix2 q n) (ix2 (0 : Fin 1) n) fun a => match a with
      | ⟨0, _⟩ => by show (0 : Nat) = if (1 : Nat) = 1 then 0 else q.val; rfl
      | ⟨1, _⟩ => by show n.val = if (320 : Nat) = 1 then 0 else n.val; rfl
  rw [hm, hb]

/-- `rowOut` at column `q` of its one row: the pairing of row `q` of the slab with row `q` of the item rows. -/
theorem rowOut_apply (off : Nat) (hs : S3200x320.Slices ![0, off] S3200x64) (hoff : off + 64 ≤ 320)
    (acc : FVec Ideal S3200x320 .f32) (ei : FVec Ideal S3200x64 .f32) (q : Fin 3200) :
    rowOut off hs acc ei (ix2 (0 : Fin 1) q)
      = ∑ j : Fin 64, acc (ix2 q (⟨off + j.val, by have := j.isLt; omega⟩ : Fin 320)) * ei (ix2 q j) := by
  unfold rowOut
  refine (shapeCast_apply _ shapeCasts_S3200_S1x3200 (ix2 (0 : Fin 1) q) (ix1 q) (by
    rw [Shape.rowMajor_val_one, Shape.rowMajor_val_two]
    show q.val = 0 * 3200 + q.val
    omega)).trans ?_
  refine (Ideal.multiReduction_add_single (mulf (extractStridedSlice S3200x64 ![0, off] acc hs) ei) 0x00000000#32
    reduces_S3200x64_S3200 (.inl rfl) rfl (ix1 q)).trans ?_
  refine Finset.sum_congr rfl fun (j : Fin 64) _ => ?_
  have hl : reduces_S3200x64_S3200.lift (ix1 q) j = ix2 q j :=
    funext fun a => Fin.ext (by match a with | ⟨0, _⟩ => rfl | ⟨1, _⟩ => rfl)
  refine (congrArg (mulf (extractStridedSlice S3200x64 ![0, off] acc hs) ei) hl).trans ?_
  show extractStridedSlice S3200x64 ![0, off] acc hs (ix2 q j) * ei (ix2 q j) = _
  refine congrArg (· * ei (ix2 q j)) ?_
  exact extractStridedSlice_apply ![0, off] acc hs (ix2 q j) _ fun a => match a with
    | ⟨0, _⟩ => by show q.val = 0 + q.val; omega
    | ⟨1, _⟩ => by show off + j.val = off + j.val; rfl

end Cert.KernelIdeal.Chunk

end
-- ==== Proof.Block.lean ====
/-
  What the kernel body leaves in its 5 × 16000 output block, as one function of the four input blocks.

  The body cuts the 16000 edges of the block into five chunks of 3200 and, for each chunk and each of the five
  relations, stores one 1 × 3200 row: 25 stores whose rectangles tile the block.  Each store is `rowOut` of the
  chunk's `affine` image (Chunk.lean) at the relation's slab, so entry (r, col) of the block is

      ∑ j, ((∑ k, x0 col k * x2 k (64 r + j)) + x3 0 (64 r + j)) * x1 col j

  whatever chunk `col` falls in: `x0`, `x1` the user and item rows of the block's edges, `x2` the stacked
  weights, `x3` the stacked bias row.
-/
import proofs.«153297_j80315888435313_2_alg».proof.Proof.Chunk
import proofs.«153297_j80315888435313_2_alg».proof.Proof.Gen.KernelIdeal.Frame

noncomputable section

namespace Cert.KernelIdeal.Block

open Cert.KernelIdeal Cert.KernelIdeal.Gen Cert.KernelIdeal.Chunk Idealize.ShloMosaic Idealize.ShloMosaic.ValueIdx

/-- Entry (r, col) of the output block. -/
def blockVal (x0 : Vec Ideal S16000x64 .bf16) (x1 : Vec Ideal S16000x64 .f32) (x2 : Vec Ideal S64x320 .bf16)
    (x3 : Vec Ideal S1x320 .f32) (r : Fin 5) (col : Fin 16000) : EReal :=
  ∑ j : Fin 64,
    ((∑ k : Fin 64, x0 (ix2 col k) * x2 (ix2 k (⟨64 * r.val + j.val, by have := r.isLt; have := j.isLt; omega⟩ : Fin 320)))
      + x3 (ix2 (0 : Fin 1) (⟨64 * r.val + j.val, by have := r.isLt; have := j.isLt; omega⟩ : Fin 320))) * x1 (ix2 col j)

/-- The same as a function of the block's index. -/
def blockFn (x0 : Vec Ideal S16000x64 .bf16) (x1 : Vec Ideal S16000x64 .f32) (x2 : Vec Ideal S64x320 .bf16)
    (x3 : Vec Ideal S1x320 .f32) : Vec Ideal S5x16000 .f32 :=
  fun y => blockVal x0 x1 x2 x3 ⟨(y 0).val, (y 0).isLt⟩ ⟨(y 1).val, (y 1).isLt⟩

theorem hz2 : (![0, 0] : Fin 2 → Nat) = fun _ => 0 := funext fun a => by fin_cases a <;> rfl

/-- A chunk of rows of a 16000 × 64 block, read at (q, k), is the block at (co + q, k). -/
theorem ld_rows {e : EltTy} (x : Vec Ideal S16000x64 e) (co : Nat)
    (inbI : ∀ a, (![co, 0] : Fin 2 → Nat) a + S3200x64.size a ≤ S16000x64.size a) (hco : co + 3200 ≤ 16000)
    (q : Fin 3200) (k : Fin 64) :
    View.ld (Val := Elt Ideal) x (Rect.unit (s := S16000x64) ![co, 0] S3200x64.size inbI) (ix2 q k)
      = x (ix2 (⟨co + q.val, by have := q.isLt; omega⟩ : Fin 16000) k) := by
  show x ((Rect.unit (s := S16000x64) ![co, 0] S3200x64.size inbI).emb (ix2 q k)) = _
  refine congrArg x (funext fun a => Fin.ext ?_)
  match a with
  | ⟨0, _⟩ => show co + 1 * q.val = co + q.val; omega
  | ⟨1, _⟩ => show 0 + 1 * k.val = k.val; omega

/-- One store of the body, at its index, is the block function at the index under it: the store through the
    rectangle at row `ro`, column `co` of the block is relation `ro`'s row of the chunk starting at edge `co`. -/
theorem piece_at (x0 : Vec Ideal S16000x64 .bf16) (x1 : Vec Ideal S16000x64 .f32) (x2 : Vec Ideal S64x320 .bf16)
    (x3 : Vec Ideal S1x320 .f32) (ro co off : Nat) (hoff : off = 64 * ro)
    (hs : S3200x320.Slices ![0, off] S3200x64)
    (inbO : ∀ a, (![ro, co] : Fin 2 → Nat) a + S1x3200.size a ≤ S5x16000.size a)
    (inbI : ∀ a, (![co, 0] : Fin 2 → Nat) a + S3200x64.size a ≤ S16000x64.size a)
    (x : S1x3200.Idx) :
    rowOut (F := Ideal) off hs
        (affine (F := Ideal) (shapeCast S64x320 (View.ld (Val := Elt Ideal) x2 r0_0) shapeCasts_S64x320_S64x320)
          (shapeCast S1x320 (View.ld (Val := Elt Ideal) x3 r0_1) shapeCasts_S1x320_S1x320)
          (shapeCast S3200x64 (View.ld (Val := Elt Ideal) x0 (Rect.unit (s := S16000x64) ![co, 0] S3200x64.size inbI)) shapeCasts_S3200x64_S3200x64))
        (shapeCast S3200x64 (View.ld (Val := Elt Ideal) x1 (Rect.unit (s := S16000x64) ![co, 0] S3200x64.size inbI)) shapeCasts_S3200x64_S3200x64) x
      = blockFn x0 x1 x2 x3 ((Rect.unit (s := S5x16000) ![ro, co] S1x3200.size inbO).emb x) := by
  obtain ⟨p, q, rfl⟩ : ∃ (p : Fin 1) (q : Fin 3200), x = ix2 p q := ⟨x 0, x 1, eq_ix2 x⟩
  obtain rfl : p = 0 := Fin.eq_zero p
  subst hoff
  have hro : ro + 1 ≤ 5 := inbO 0
  have hco : co + 3200 ≤ 16000 := inbO 1
  have e2 : shapeCast S64x320 (View.ld (Val := Elt Ideal) x2 r0_0) shapeCasts_S64x320_S64x320 = x2 :=
    (shapeCast_self _ _).trans (View.ld_unit_zero (S := S64x320) hz2 _ x2)
  have e3 : shapeCast S1x320 (View.ld (Val := Elt Ideal) x3 r0_1) shapeCasts_S1x320_S1x320 = x3 :=
    (shapeCast_self _ _).trans (View.ld_unit_zero (S := S1x320) hz2 _ x3)
  have e0 : shapeCast S3200x64 (View.ld (Val := Elt Ideal) x0 (Rect.unit (s := S16000x64) ![co, 0] S3200x64.size inbI))
      shapeCasts_S3200x64_S3200x64 = View.ld (Val := Elt Ideal) x0 (Rect.unit (s := S16000x64) ![co, 0] S3200x64.size inbI) :=
    shapeCast_self _ _
  have e1 : shapeCast S3200x64 (View.ld (Val := Elt Ideal) x1 (Rect.unit (s := S16000x64) ![co, 0] S3200x64.size inbI))
      shapeCasts_S3200x64_S3200x64 = View.ld (Val := Elt Ideal) x1 (Rect.unit (s := S16000x64) ![co, 0] S3200x64.size inbI) :=
    shapeCast_self _ _
  rw [rowOut_apply (64 * ro) hs (by omega), e0, e1, e2, e3]
  unfold blockFn blockVal
  refine Finset.sum_congr rfl fun j _ => ?_
  rw [affine_apply, ld_rows x1 co inbI hco]
  have hq : (⟨co + q.val, by have := q.isLt; omega⟩ : Fin 16000)
      = ⟨((Rect.unit (s := S5x16000) ![ro, co] S1x3200.size inbO).emb (ix2 (0 : Fin 1) q) 1).val,
          ((Rect.unit (s := S5x16000) ![ro, co] S1x3200.size inbO).emb (ix2 (0 : Fin 1) q) 1).isLt⟩ :=
    Fin.ext (by show co + q.val = co + 1 * q.val; omega)
  have hn : (⟨64 * ro + j.val, by have := j.isLt; omega⟩ : Fin 320)
      = ⟨64 * ((Rect.unit (s := S5x16000) ![ro, co] S1x3200.size inbO).emb (ix2 (0 : Fin 1) q) 0).val + j.val,
          by have := j.isLt
             show 64 * (ro + 1 * 0) + j.val < 320
             omega⟩ :=
    Fin.ext (by show 64 * ro + j.val = 64 * (ro + 1 * 0) + j.val; omega)
  rw [← hq, ← hn]
  refine congrArg (fun s => (s + x3 (ix2 (0 : Fin 1) (⟨64 * ro + j.val, by have := j.isLt; omega⟩ : Fin 320)))
    * x1 (ix2 (⟨co + q.val, by have := q.isLt; omega⟩ : Fin 16000) j)) ?_
  refine Finset.sum_congr rfl fun k _ => ?_
  rw [ld_rows x0 co inbI hco]

/-- THE BLOCK: the canon of the body's 25 stores is the block function, at every index of the block.  Each store
    is `piece_at` at its relation `ro` (row of the block) and its chunk's first edge `co`; the 25 rectangles tile
    the block. -/
theorem out0_4_apply (x0 : Vec Ideal S16000x64 .bf16) (x1 : Vec Ideal S16000x64 .f32) (x2 : Vec Ideal S64x320 .bf16)
    (x3 : Vec Ideal S1x320 .f32) (y : S5x16000.Idx) :
    out0_4 (F := Ideal) x0 x1 x2 x3 y = blockFn x0 x1 x2 x3 y := by
  unfold out0_4
  refine View.canon_apply_of_pieces (Val := Elt Ideal) (blockFn x0 x1 x2 x3) _ ?_ y
    (cover0_4 _ _ _ _ _ _ _ _ _ _ _ _ _ _ _ _ _ _ _ _ _ _ _ _ _ y)
  intro pc hpc x
  rcases List.mem_cons.mp hpc with rfl | hpc
  · exact piece_at x0 x1 x2 x3 4 12800 256 rfl slices_S3200x320_o0_256_S3200x64 inb_S5x16000_S1x3200_4_12800 inb_S16000x64_S3200x64_12800_0 x
  rcases List.mem_cons.mp hpc with rfl | hpc
  · exact piece_at x0 x1 x2 x3 3 12800 192 rfl slices_S3200x320_o0_192_S3200x64 inb_S5x16000_S1x3200_3_12800 inb_S16000x64_S3200x64_12800_0 x
  rcases List.mem_cons.mp hpc with rfl | hpc
  · exact piece_at x0 x1 x2 x3 2 12800 128 rfl slices_S3200x320_o0_128_S3200x64 inb_S5x16000_S1x3200_2_12800 inb_S16000x64_S3200x64_12800_0 x
  rcases List.mem_cons.mp hpc with rfl | hpc
  · exact piece_at x0 x1 x2 x3 1 12800 64 rfl slices_S3200x320_o0_64_S3200x64 inb_S5x16000_S1x3200_1_12800 inb_S16000x64_S3200x64_12800_0 x
  rcases List.mem_cons.mp hpc with rfl | hpc
  · exact piece_at x0 x1 x2 x3 0 12800 0 rfl slices_S3200x320_o0_0_S3200x64 inb_S5x16000_S1x3200_0_12800 inb_S16000x64_S3200x64_12800_0 x
  rcases List.mem_cons.mp hpc with rfl | hpc
  · exact piece_at x0 x1 x2 x3 4 9600 256 rfl slices_S3200x320_o0_256_S3200x64 inb_S5x16000_S1x3200_4_9600 inb_S16000x64_S3200x64_9600_0 x
  rcases List.mem_cons.mp hpc with rfl | hpc
  · exact piece_at x0 x1 x2 x3 3 9600 192 rfl slices_S3200x320_o0_192_S3200x64 inb_S5x16000_S1x3200_3_9600 inb_S16000x64_S3200x64_9600_0 x
  rcases List.mem_cons.mp hpc with rfl | hpc
  · exact piece_at x0 x1 x2 x3 2 9600 128 rfl slices_S3200x320_o0_128_S3200x64 inb_S5x16000_S1x3200_2_9600 inb_S16000x64_S3200x64_9600_0 x
  rcases List.mem_cons.mp hpc with rfl | hpc
  · exact piece_at x0 x1 x2 x3 1 9600 64 rfl slices_S3200x320_o0_64_S3200x64 inb_S5x16000_S1x3200_1_9600 inb_S16000x64_S3200x64_9600_0 x
  rcases List.mem_cons.mp hpc with rfl | hpc
  · exact piece_at x0 x1 x2 x3 0 9600 0 rfl slices_S3200x320_o0_0_S3200x64 inb_S5x16000_S1x3200_0_9600 inb_S16000x64_S3200x64_9600_0 x
  rcases List.mem_cons.mp hpc with rfl | hpc
  · exact piece_at x0 x1 x2 x3 4 6400 256 rfl slices_S3200x320_o0_256_S3200x64 inb_S5x16000_S1x3200_4_6400 inb_S16000x64_S3200x64_6400_0 x
  rcases List.mem_cons.mp hpc with rfl | hpc
  · exact piece_at x0 x1 x2 x3 3 6400 192 rfl slices_S3200x320_o0_192_S3200x64 inb_S5x16000_S1x3200_3_6400 inb_S16000x64_S3200x64_6400_0 x
  rcases List.mem_cons.mp hpc with rfl | hpc
  · exact piece_at x0 x1 x2 x3 2 6400 128 rfl slices_S3200x320_o0_128_S3200x64 inb_S5x16000_S1x3200_2_6400 inb_S16000x64_S3200x64_6400_0 x
  rcases List.mem_cons.mp hpc with rfl | hpc
  · exact piece_at x0 x1 x2 x3 1 6400 64 rfl slices_S3200x320_o0_64_S3200x64 inb_S5x16000_S1x3200_1_6400 inb_S16000x64_S3200x64_6400_0 x
  rcases List.mem_cons.mp hpc with rfl | hpc
  · exact piece_at x0 x1 x2 x3 0 6400 0 rfl slices_S3200x320_o0_0_S3200x64 inb_S5x16000_S1x3200_0_6400 inb_S16000x64_S3200x64_6400_0 x
  rcases List.mem_cons.mp hpc with rfl | hpc
  · exact piece_at x0 x1 x2 x3 4 3200 256 rfl slices_S3200x320_o0_256_S3200x64 inb_S5x16000_S1x3200_4_3200 inb_S16000x64_S3200x64_3200_0 x
  rcases List.mem_cons.mp hpc with rfl | hpc
  · exact piece_at x0 x1 x2 x3 3 3200 192 rfl slices_S3200x320_o0_192_S3200x64 inb_S5x16000_S1x3200_3_3200 inb_S16000x64_S3200x64_3200_0 x
  rcases List.mem_cons.mp hpc with rfl | hpc
  · exact piece_at x0 x1 x2 x3 2 3200 128 rfl slices_S3200x320_o0_128_S3200x64 inb_S5x16000_S1x3200_2_3200 inb_S16000x64_S3200x64_3200_0 x
  rcases List.mem_cons.mp hpc with rfl | hpc
  · exact piece_at x0 x1 x2 x3 1 3200 64 rfl slices_S3200x320_o0_64_S3200x64 inb_S5x16000_S1x3200_1_3200 inb_S16000x64_S3200x64_3200_0 x
  rcases List.mem_cons.mp hpc with rfl | hpc
  · exact piece_at x0 x1 x2 x3 0 3200 0 rfl slices_S3200x320_o0_0_S3200x64 inb_S5x16000_S1x3200_0_3200 inb_S16000x64_S3200x64_3200_0 x
  rcases List.mem_cons.mp hpc with rfl | hpc
  · exact piece_at x0 x1 x2 x3 4 0 256 rfl slices_S3200x320_o0_256_S3200x64 inb_S5x16000_S1x3200_4_0 inb_S16000x64_S3200x64_0_0 x
  rcases List.mem_cons.mp hpc with rfl | hpc
  · exact piece_at x0 x1 x2 x3 3 0 192 rfl slices_S3200x320_o0_192_S3200x64 inb_S5x16000_S1x3200_3_0 inb_S16000x64_S3200x64_0_0 x
  rcases List.mem_cons.mp hpc with rfl | hpc
  · exact piece_at x0 x1 x2 x3 2 0 128 rfl slices_S3200x320_o0_128_S3200x64 inb_S5x16000_S1x3200_2_0 inb_S16000x64_S3200x64_0_0 x
  rcases List.mem_cons.mp hpc with rfl | hpc
  · exact piece_at x0 x1 x2 x3 1 0 64 rfl slices_S3200x320_o0_64_S3200x64 inb_S5x16000_S1x3200_1_0 inb_S16000x64_S3200x64_0_0 x
  rcases List.mem_cons.mp hpc with rfl | hpc
  · exact piece_at x0 x1 x2 x3 0 0 0 rfl slices_S3200x320_o0_0_S3200x64 inb_S5x16000_S1x3200_0_0 inb_S16000x64_S3200x64_0_0 x
  nomatch hpc

end Cert.KernelIdeal.Block

end
-- ==== Proof.KernelArray.lean ====
/-
  From blocks to the array: what the pallas_call leaves in its [5, edges] output array.

  Grid point `t` (of 125) works on edges 16000 t … 16000 t + 15999: it stages rows 16000 t … of the two gathered
  arrays, the whole stacked weights and the whole bias row, and writes back block (0, t) of the output.  Entry
  (r, col) of that block is the block function of Block.lean, so entry (r, e) of the output array is

      ∑ j, ((∑ k, a7 e k * a17 k (64 r + j)) + a18 0 (64 r + j)) * a14 e j

  over the four arrays as the region finds them, and the 125 blocks tile the array (edge `e` is in block `e / 16000`).
-/
import proofs.«153297_j80315888435313_2_alg».proof.Proof.Block
import Idealize.ShloMosaic.Lib.Pipeline.Value

noncomputable section

namespace Cert.KernelIdeal.Arr

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Entry (r, e) of the region's output array, from the four arrays the region stages. -/
def arrVal (a7 : Vec Ideal S2000000x64 .bf16) (a14 : Vec Ideal S2000000x64 .f32) (a17 : Vec Ideal S64x320 .bf16)
    (a18 : Vec Ideal S1x320 .f32) (r : Fin 5) (e : Fin 2000000) : EReal :=
  ∑ j : Fin 64,
    ((∑ k : Fin 64, a7 (ix2 e k) * a17 (ix2 k (⟨64 * r.val + j.val, by have := r.isLt; have := j.isLt; omega⟩ : Fin 320)))
      + a18 (ix2 (0 : Fin 1) (⟨64 * r.val + j.val, by have := r.isLt; have := j.isLt; omega⟩ : Fin 320))) * a14 (ix2 e j)

/-- The same as a function of the array's index. -/
def arrFn (a7 : Vec Ideal S2000000x64 .bf16) (a14 : Vec Ideal S2000000x64 .f32) (a17 : Vec Ideal S64x320 .bf16)
    (a18 : Vec Ideal S1x320 .f32) : Vec Ideal S5x2000000 .f32 :=
  fun i => arrVal a7 a14 a17 a18 ⟨(i 0).val, (i 0).isLt⟩ ⟨(i 1).val, (i 1).isLt⟩

/-- A grid point's number is below 125. -/
theorem t_lt (t : Fin cfg0.N) : t.val < 125 := lt_of_lt_of_eq t.isLt N_0

/-- The printed index maps, decided over the 125 grid points: the two gathered arrays are cut along the edges at
    block `t`, the weights and the bias row are staged whole, the output is cut along the edges at block `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The user rows staged at point `t`: row `col` of the block is row 16000 t + col of the gathered array. -/
theorem iblk0_apply (c : Dev nD) (t : Fin cfg0.N) (col : Fin 16000) (k : Fin 64) :
    iblk m c 0 t (ix2 col k)
      = V m c main_v7 (ix2 (⟨16000 * t.val + col.val, by have := t_lt t; have := col.isLt; omega⟩ : Fin 2000000) k) := by
  obtain ⟨e0, e1, -⟩ := idx_facts t
  show V m c main_v7 (((cfg0.win 0).blk t).view.emb (ix2 col k)) = _
  refine congrArg (V m c main_v7) (funext fun a => Fin.ext ?_)
  match a with
  | ⟨0, _⟩ => show win0_0.index t (0 : Fin 2) * 16000 + 1 * col.val = 16000 * t.val + col.val; omega
  | ⟨1, _⟩ => show win0_0.index t (1 : Fin 2) * 64 + 1 * k.val = k.val; omega

/-- The item rows staged at point `t`, likewise. -/
theorem iblk1_apply (c : Dev nD) (t : Fin cfg0.N) (col : Fin 16000) (j : Fin 64) :
    iblk m c 1 t (ix2 col j)
      = V m c main_v14 (ix2 (⟨16000 * t.val + col.val, by have := t_lt t; have := col.isLt; omega⟩ : Fin 2000000) j) := by
  obtain ⟨-, -, e0, e1, -⟩ := idx_facts t
  show V m c main_v14 (((cfg0.win 1).blk t).view.emb (ix2 col j)) = _
  refine congrArg (V m c main_v14) (funext fun a => Fin.ext ?_)
  match a with
  | ⟨0, _⟩ => show win0_1.index t (0 : Fin 2) * 16000 + 1 * col.val = 16000 * t.val + col.val; omega
  | ⟨1, _⟩ => show win0_1.index t (1 : Fin 2) * 64 + 1 * j.val = j.val; omega

/-- The stacked weights are staged whole at every point. -/
theorem iblk2_apply (c : Dev nD) (t : Fin cfg0.N) (k : Fin 64) (n : Fin 320) :
    iblk m c 2 t (ix2 k n) = V m c main_v17 (ix2 k n) := by
  obtain ⟨-, -, -, -, e0, e1, -⟩ := idx_facts t
  show V m c main_v17 (((cfg0.win 2).blk t).view.emb (ix2 k n)) = _
  refine congrArg (V m c main_v17) (funext fun a => Fin.ext ?_)
  match a with
  | ⟨0, _⟩ => show win0_2.index t (0 : Fin 2) * 64 + 1 * k.val = k.val; omega
  | ⟨1, _⟩ => show win0_2.index t (1 : Fin 2) * 320 + 1 * n.val = n.val; omega

/-- The stacked bias row is staged whole at every point. -/
theorem iblk3_apply (c : Dev nD) (t : Fin cfg0.N) (z : Fin 1) (n : Fin 320) :
    iblk m c 3 t (ix2 z n) = V m c main_v18 (ix2 z n) := by
  obtain ⟨-, -, -, -, -, -, e0, e1, -⟩ := idx_facts t
  show V m c main_v18 (((cfg0.win 3).blk t).view.emb (ix2 z n)) = _
  refine congrArg (V m c main_v18) (funext fun a => Fin.ext ?_)
  match a with
  | ⟨0, _⟩ => show win0_3.index t (0 : Fin 2) * 1 + 1 * z.val = z.val; omega
  | ⟨1, _⟩ => show win0_3.index t (1 : Fin 2) * 320 + 1 * n.val = n.val; omega

/-- So the block function of the blocks staged at point `t` is the array function at the edge under the block's
    column. -/
theorem blockVal_staged (c : Dev nD) (t : Fin cfg0.N) (r : Fin 5) (col : Fin 16000) :
    blockVal (iblk m c 0 t) (iblk m c 1 t) (iblk m c 2 t) (iblk m c 3 t) r col
      = arrVal (V m c main_v7) (V m c main_v14) (V m c main_v17) (V m c main_v18) r
          (⟨16000 * t.val + col.val, by have := t_lt t; have := col.isLt; omega⟩ : Fin 2000000) := by
  unfold blockVal arrVal
  refine Finset.sum_congr rfl fun j _ => ?_
  rw [iblk1_apply m c t col j, iblk3_apply m c t]
  refine congrArg (fun s => (s + V m c main_v18 (ix2 (0 : Fin 1) (⟨64 * r.val + j.val, by have := r.isLt; have := j.isLt; omega⟩ : Fin 320)))
    * V m c main_v14 (ix2 (⟨16000 * t.val + col.val, by have := t_lt t; have := col.isLt; omega⟩ : Fin 2000000) j)) ?_
  refine Finset.sum_congr rfl fun k _ => ?_
  rw [iblk0_apply m c t col k, iblk2_apply m c t]

/-- WHAT POINT `t` WRITES BACK is block `t` of the array function of the four arrays as the region finds them. -/
theorem flushed4_eq (c : Dev nD) (t : Fin cfg0.N) :
    (dats m 0 c).flushed 4 t = ((cfg0.win 4).blk t).view.read (Elt Ideal)
      (arrFn (V m c main_v7) (V m c main_v14) (V m c main_v17) (V m c main_v18)) := by
  show (cfg0.win 4).cut (grid0.coords t) ((dats m 0 c).after 4 t) = _
  rw [after0_4]
  obtain ⟨-, -, -, -, -, -, -, -, e0, e1⟩ := idx_facts t
  funext y
  obtain ⟨r, col, rfl⟩ : ∃ (r : Fin 5) (col : Fin 16000), y = ix2 r col := ⟨y 0, y 1, eq_ix2 y⟩
  show out0_4 (iblk m c 0 t) (iblk m c 1 t) (iblk m c 2 t) (iblk m c 3 t) (ix2 r col)
    = arrFn (V m c main_v7) (V m c main_v14) (V m c main_v17) (V m c main_v18) (((cfg0.win 4).blk t).view.emb (ix2 r col))
  refine (out0_4_apply (iblk m c 0 t) (iblk m c 1 t) (iblk m c 2 t) (iblk m c 3 t) (ix2 r col)).trans ?_
  refine (blockVal_staged m c t r col).trans ?_
  unfold arrFn
  have hr : r = ⟨(((cfg0.win 4).blk t).view.emb (ix2 r col) 0).val, (((cfg0.win 4).blk t).view.emb (ix2 r col) 0).isLt⟩ :=
    Fin.ext (by show r.val = win0_4.index t (0 : Fin 2) * 5 + 1 * r.val; omega)
  have he : (⟨16000 * t.val + col.val, by have := t_lt t; have := col.isLt; omega⟩ : Fin 2000000)
      = ⟨(((cfg0.win 4).blk t).view.emb (ix2 r col) 1).val, (((cfg0.win 4).blk t).view.emb (ix2 r col) 1).isLt⟩ :=
    Fin.ext (by show 16000 * t.val + col.val = win0_4.index t (1 : Fin 2) * 16000 + 1 * col.val; omega)
  rw [← hr, ← he]

/-- An index of the output array is in point `t`'s block iff each coordinate is in the block's range. -/
theorem mem_blk4 (t : Fin cfg0.N) (i : S5x2000000.Idx) :
    i ∈ ((cfg0.win 4).blk t).view.set ↔ ∀ a : Fin 2, win0_4.index t a * S5x16000.size a ≤ (i a).val
      ∧ (i a).val < win0_4.index t a * S5x16000.size a + S5x16000.size a := by
  show i ∈ ((View.whole main_v19).slice (win0_4.rect t)).set ↔ _
  rw [View.set_slice_whole, Rect.mem_set_unit]
  exact Iff.rfl

/-- Every index of the output array is in some point's block: edge `e` in block `e / 16000`. -/
theorem cover4 (i : S5x2000000.Idx) :
    ∃ t : Fin cfg0.N, (cfg0.win 4).flush t = true ∧ i ∈ ((cfg0.win 4).blk t).view.set := by
  have hi0 : (i 0).val < 5 := (i 0).isLt
  have hi1 : (i 1).val < 2000000 := (i 1).isLt
  have hN : cfg0.N = 125 := N_0
  let t : Fin cfg0.N := ⟨(i 1).val / 16000, by rw [hN]; omega⟩
  obtain ⟨-, -, -, -, -, -, -, -, e0, e1⟩ := idx_facts t
  have ht : t.val = (i 1).val / 16000 := rfl
  refine ⟨t, flush0_4 t, ?_⟩
  rw [mem_blk4]
  intro a
  match a with
  | ⟨0, _⟩ => show win0_4.index t (0 : Fin 2) * 5 ≤ (i 0).val ∧ (i 0).val < win0_4.index t (0 : Fin 2) * 5 + 5; omega
  | ⟨1, _⟩ =>
    show win0_4.index t (1 : Fin 2) * 16000 ≤ (i 1).val ∧ (i 1).val < win0_4.index t (1 : Fin 2) * 16000 + 16000
    omega

/-- THE OUTPUT ARRAY after the region: the array function of the four staged arrays. -/
theorem final4 (c : Dev nD) : (dats m 0 c).arrAt 4 cfg0.N
    = arrFn (V m c main_v7) (V m c main_v14) (V m c main_v17) (V m c main_v18) :=
  (dats m 0 c).arrAt_eq_of_cover 4 _ (fun t _ => flushed4_eq m c t) cover4

end Cert.KernelIdeal.Arr

end
-- ==== Proof.KernelHost.lean ====
/-
  The host side of the kernel's program: what the arrays the pallas_call stages hold, and what the one host
  operation after it does.

  Before the region the program gathers the user rows (from the user table narrowed to bf16, which changes no
  value on the extended reals) and the item rows at the edges' endpoints, lays the weights out as one
  64 × 320 matrix — entry (k, 64 r + j) is `W r j k`: relation `r`'s matrix transposed, the five side by side —
  and the biases as one 1 × 320 row, entry (0, 64 r + j) being `b r j`.  After the region it transposes the
  [5, edges] result to [edges, 5].
-/
import proofs.«153297_j80315888435313_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- An edge-endpoint index array made ready for the gather: a negative index is moved up by the table's length
    `n`, and the array is given a trailing unit axis. -/
def wrapped (n : BitVec 32) (x : IVec S2000000 32) : IVec S2000000x1 32 :=
  broadcastInDim S2000000x1 ![0] bcast_S2000000_S2000000x1_0
    (select (cmpi .slt x (broadcastInDim S2000000 ![] bcast_S_S2000000 (constantI S_ 32 0#32)))
      (addi x (broadcastInDim S2000000 ![] bcast_S_S2000000 (constantI S_ 32 n))) x)

/-- The gathered user rows as the region finds them. -/
theorem V_v7 (c : Dev nD) :
    V m c main_v7 = Host.gather gather_S100000x64_S2000000x1_S2000000x64_1_0_n_n_0_1_164
      (truncf (F := Ideal) .bf16 (m ((c.tc : Thread nD τ).loc main_arg0)) bitsLt_bf16_f32)
      (wrapped 100000#32 (m ((c.tc : Thread nD τ).loc main_arg2))) := by
  show StableHlo.after hostOps0 (fun b => m (c, b)) (Proc.devRef .tc main_v7) = _
  after_results
  rfl

/-- The gathered item rows as the region finds them. -/
theorem V_v14 (c : Dev nD) :
    V m c main_v14 = Host.gather gather_S50000x64_S2000000x1_S2000000x64_1_0_n_n_0_1_164
      (m ((c.tc : Thread nD τ).loc main_arg1))
      (wrapped 50000#32 (m ((c.tc : Thread nD τ).loc main_arg3))) := by
  show StableHlo.after hostOps0 (fun b => m (c, b)) (Proc.devRef .tc main_v14) = _
  after_results
  rfl

/-- The stacked weights as the region finds them … -/
theorem V_v17 (c : Dev nD) :
    V m c main_v17 = truncf (F := Ideal) .bf16
      (shapeCast S64x320 (transpose S64x5x64 [2, 0, 1] (m ((c.tc : Thread nD τ).loc main_arg4)) transposes_S5x64x64_S64x5x64_2_0_1)
        shapeCasts_S64x5x64_S64x320) bitsLt_bf16_f32 := by
  show StableHlo.after hostOps0 (fun b => m (c, b)) (Proc.devRef .tc main_v17) = _
  after_results
  rfl

/-- … read at row `k`, column 64 r + j: `W r j k`. -/
theorem v17_apply (c : Dev nD) (k : Fin 64) (r : Fin 5) (j : Fin 64) :
    V m c main_v17 (ix2 k (⟨64 * r.val + j.val, by have := r.isLt; have := j.isLt; omega⟩ : Fin 320))
      = m ((c.tc : Thread nD τ).loc main_arg4) (ix3 r j k) := by
  have hr := r.isLt
  have hj := j.isLt
  have hk := k.isLt
  rw [V_v17]
  refine (truncf_apply _ bitsLt_bf16_f32 _).trans ?_
  refine (shapeCast_apply _ shapeCasts_S64x5x64_S64x320 _ (ix3 k r j) (by
    rw [Shape.rowMajor_val_three, Shape.rowMajor_val_two]
    show (k.val * 5 + r.val) * 64 + j.val = k.val * 320 + (64 * r.val + j.val)
    omega)).trans ?_
  exact transpose_apply [2, 0, 1] _ transposes_S5x64x64_S64x5x64_2_0_1 (ix3 k r j) (ix3 r j k)
    (fun b => match b with | ⟨0, _⟩ => rfl | ⟨1, _⟩ => rfl | ⟨2, _⟩ => rfl)

/-- The stacked bias row as the region finds it … -/
theorem V_v18 (c : Dev nD) :
    V m c main_v18 = shapeCast S1x320 (m ((c.tc : Thread nD τ).loc main_arg5)) shapeCasts_S5x64_S1x320 := by
  show StableHlo.after hostOps0 (fun b => m (c, b)) (Proc.devRef .tc main_v18) = _
  after_results
  rfl

/-- … read at column 64 r + j: `b r j`. -/
theorem v18_apply (c : Dev nD) (r : Fin 5) (j : Fin 64) :
    V m c main_v18 (ix2 (0 : Fin 1) (⟨64 * r.val + j.val, by have := r.isLt; have := j.isLt; omega⟩ : Fin 320))
      = m ((c.tc : Thread nD τ).loc main_arg5) (ix2 r j) := by
  have hr := r.isLt
  have hj := j.isLt
  rw [V_v18]
  exact shapeCast_apply _ shapeCasts_S5x64_S1x320 _ (ix2 r j) (by
    rw [Shape.rowMajor_val_two, Shape.rowMajor_val_two]
    show r.val * 64 + j.val = 0 * 320 + (64 * r.val + j.val)
    omega)

/-- The program's result: the region's output array, transposed. -/
theorem tail_v20 (c : Dev nD) :
    Pipeline.afterTail₀ cfgs (dats m) 0 (V0 m) [hostOps1] c main_v20
      = transpose S2000000x5 [1, 0] ((dats m 0 c).arrAt 4 cfg0.N) transposes_S5x2000000_S2000000x5_1_0 := by
  unfold Pipeline.afterTail₀
  show StableHlo.after hostOps1 _ (Proc.devRef .tc main_v20) = _
  after_results
  exact congrArg (fun x => transpose S2000000x5 [1, 0] x transposes_S5x2000000_S2000000x5_1_0)
    (Pipeline.withArrays_arr spec0 launch0.win.arr_inj c _ _ 4)

end Cert.KernelIdeal.HostSide

end
-- ==== Proof.Score.lean ====
/-
  The quantity both programs compute.  For an edge `e` with gathered endpoint rows `eu e` (user side) and
  `ei e` (item side), and for relation `r` with weight matrix `W r` and bias row `b r`, the score is

      score e r = ∑ j, ((∑ k, eu e k * W r j k) + b r j) * ei e j

  — the relation's affine image of the user row, paired with the item row.  Everything is read on the
  extended reals, so the only laws used later are commutativity and associativity of `+`, which hold there
  without any finiteness side condition.
-/
import Idealize.ShloMosaic.PureOps.Ideal
import Idealize.ShloMosaic.Lib.ValueIdx

noncomputable section

namespace Cert.RelScore

open Idealize.ShloMosaic Idealize.ShloMosaic.ValueIdx

/-- The score of edge `e` under relation `r`, from the two gathered [edges, 64] arrays, the [5, 64, 64]
    weights and the [5, 64] biases. -/
def score (eu ei : (⟨2, ![2000000, 64]⟩ : Shape).Idx → EReal) (W : (⟨3, ![5, 64, 64]⟩ : Shape).Idx → EReal)
    (b : (⟨2, ![5, 64]⟩ : Shape).Idx → EReal) (e : Fin 2000000) (r : Fin 5) : EReal :=
  ∑ j : Fin 64, ((∑ k : Fin 64, eu (ix2 e k) * W (ix3 r j k)) + b (ix2 r j)) * ei (ix2 e j)

end Cert.RelScore

end
-- ==== Proof.KernelValue.lean ====
/-
  The kernel's program, run: on every core its result array holds, at (e, r), the score of edge `e` under
  relation `r` over the two gathered arrays, and the arguments end unchanged.

  The region's output array is the array function of KernelArray.lean over the staged arrays; the stacked weights
  at (k, 64 r + j) are `W r j k` and the stacked bias at 64 r + j is `b r j` (KernelHost.lean), which turns the
  array function at (r, e) into the score; the closing transpose reads (e, r) from (r, e).
-/
import proofs.«153297_j80315888435313_2_alg».proof.Proof.KernelArray
import proofs.«153297_j80315888435313_2_alg».proof.Proof.KernelHost
import proofs.«153297_j80315888435313_2_alg».proof.Proof.Score

noncomputable section

namespace Cert.KernelIdeal.KValue

open Cert.KernelIdeal Cert.KernelIdeal.Gen Cert.KernelIdeal.Arr Cert.KernelIdeal.HostSide Cert.RelScore
open Idealize.ShloMosaic Idealize.ShloMosaic.TcCoe Idealize.SL.Sem Idealize.ShloMosaic.ValueIdx

variable (m : (ℓ : Loc nD τ sig) → Buf (Elt Ideal) ℓ) (ρ : Dev nD → PrngReg)

/-- The program's result on core `c`: the scores over the gathered arrays as the region finds them. -/
def result (c : Dev nD) : Vec Ideal S2000000x5 .f32 := fun i =>
  score (V m c main_v7 : S2000000x64.Idx → EReal) (V m c main_v14 : S2000000x64.Idx → EReal)
    (m ((c.tc : Thread nD τ).loc main_arg4)) (m ((c.tc : Thread nD τ).loc main_arg5))
    ⟨(i 0).val, (i 0).isLt⟩ ⟨(i 1).val, (i 1).isLt⟩

/-- The array function over the staged arrays is the score: the stacked layouts read back. -/
theorem arrVal_score (c : Dev nD) (r : Fin 5) (e : Fin 2000000) :
    arrVal (V m c main_v7) (V m c main_v14) (V m c main_v17) (V m c main_v18) r e
      = score (V m c main_v7 : S2000000x64.Idx → EReal) (V m c main_v14 : S2000000x64.Idx → EReal)
          (m ((c.tc : Thread nD τ).loc main_arg4)) (m ((c.tc : Thread nD τ).loc main_arg5)) e r := by
  unfold arrVal score
  refine Finset.sum_congr rfl fun j _ => ?_
  rw [v18_apply m c r j]
  refine congrArg (fun s => (s + m ((c.tc : Thread nD τ).loc main_arg5) (ix2 r j)) * V m c main_v14 (ix2 e j)) ?_
  refine Finset.sum_congr rfl fun k _ => ?_
  rw [v17_apply m c k r j]

/-- The transposed output array is the result. -/
theorem result_eq (c : Dev nD) :
    transpose S2000000x5 [1, 0] ((dats m 0 c).arrAt 4 cfg0.N) transposes_S5x2000000_S2000000x5_1_0 = result m c := by
  funext i
  obtain ⟨e, r, rfl⟩ : ∃ (e : Fin 2000000) (r : Fin 5), i = ix2 e r := ⟨i 0, i 1, eq_ix2 i⟩
  refine (transpose_apply [1, 0] _ transposes_S5x2000000_S2000000x5_1_0 (ix2 e r) (ix2 r e)
    (fun b => match b with | ⟨0, _⟩ => rfl | ⟨1, _⟩ => rfl)).trans ?_
  rw [final4]
  exact arrVal_score m c r e

/-- THE RUN: every weakly fair execution terminates with the result array at `result` and the arguments unchanged. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v20 (Pipeline.mem_restRefs_of main_v20 (by decide) (by decide))).trans
        ((tail_v20 m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefValue.lean ====
/-
  The reference, read at an index: entry (e, r) of its [edges, 5] result is the score of edge `e` under
  relation `r`, over the two gathered arrays as the reference computes them.

  The reference treats the five relations one after the other: it cuts `W[r]` and `b[r]` out of the weights and
  biases, multiplies the gathered user rows by `W[r]` transposed, adds `b[r]` to every row, multiplies entry by
  entry with the gathered item rows and sums each row from zero; the five columns of sums are then laid side by
  side.  Read at (e, r) that is `∑ j, ((∑ k, eu e k * W r j k) + b r j) * ei e j` with nothing left to rearrange:
  the only arithmetic used is `0 + s = s` for the sum's initial value.
-/
import proofs.«153297_j80315888435313_2_alg».proof.Proof.Gen.ReferenceIdeal.Read
import proofs.«153297_j80315888435313_2_alg».proof.Proof.Score

noncomputable section

namespace Cert.ReferenceIdeal.RefValue

open Cert.ReferenceIdeal Cert.ReferenceIdeal.Gen Cert.ReferenceIdeal.Read Cert.RelScore
open Idealize.ShloMosaic Idealize.ShloMosaic.ValueIdx

/-- Relation 0: its column of sums, at edge `e`, is the score of `e` under relation 0 — the slice `W[0]`
    transposed is read back at (j, k), the bias slice `b[0]` at j, and the initial value of the sum is zero. -/
theorem rel0 (x0 : (⟨S100000x64, .f32⟩ : BufTy).Contents (Elt Ideal)) (x1 : (⟨S50000x64, .f32⟩ : BufTy).Contents (Elt Ideal)) (x2 x3 : (⟨S2000000, .i32⟩ : BufTy).Contents (Elt Ideal)) (x4 : (⟨S5x64x64, .f32⟩ : BufTy).Contents (Elt Ideal)) (x5 : (⟨S5x64, .f32⟩ : BufTy).Contents (Elt Ideal)) (e : Fin 2000000) :
    val_main_v24 (F := Ideal) x0 x1 x2 x3 x4 x5 (ix1 e)
      = score (val_main_v6 (F := Ideal) x0 x2) (val_main_v13 (F := Ideal) x1 x3) x4 x5 e (0 : Fin 5) := by
  rw [val_main_v24_apply]
  refine (congrArg (· + ∑ k : Fin 64, val_main_v23 (F := Ideal) x0 x1 x2 x3 x4 x5 (idx_main_v24 (ix1 e) k))
    Ideal.ofBits_zero_f32).trans ?_
  rw [zero_add]
  unfold score
  refine Finset.sum_congr rfl fun j _ => ?_
  have hi : idx_main_v24 (ix1 e) j = ix2 e j :=
    funext fun a => Fin.ext (by match a with | ⟨0, _⟩ => rfl | ⟨1, _⟩ => rfl)
  rw [hi, val_main_v23_apply, val_main_v22_apply]
  show (val_main_v17 (F := Ideal) x0 x2 x4 (ix2 e j) + val_main_v21 (F := Ideal) x5 (ix2 e j))
      * val_main_v13 (F := Ideal) x1 x3 (ix2 e j) = _
  rw [val_main_v17_apply, val_main_v21_apply, val_main_v20_apply, val_main_v19_apply, val_main_v18_apply]
  have hb : idx_main_v18 (idx_main_v19 (idx_main_v20 (idx_main_v21 (ix2 e j)))) = ix2 (0 : Fin 5) j :=
    funext fun a => Fin.ext (by
      match a with
      | ⟨0, _⟩ => rfl
      | ⟨1, _⟩ => show j.val % 64 = j.val; have := j.isLt; omega)
  rw [hb]
  refine congrArg (fun s => (s + x5 (ix2 (0 : Fin 5) j)) * val_main_v13 (F := Ideal) x1 x3 (ix2 e j)) ?_
  refine Finset.sum_congr rfl fun k _ => ?_
  have hl : lidx_main_v17 (ix2 e j) k = ix2 e k :=
    funext fun a => Fin.ext (by match a with | ⟨0, _⟩ => rfl | ⟨1, _⟩ => rfl)
  rw [hl, val_main_v16_apply, val_main_v15_apply, val_main_v14_apply]
  have hw : idx_main_v14 (idx_main_v15 (idx_main_v16 (ridx_main_v17 (ix2 e j) k))) = ix3 (0 : Fin 5) j k :=
    funext fun a => Fin.ext (by
      match a with
      | ⟨0, _⟩ => rfl
      | ⟨1, _⟩ => show (j.val * 64 + k.val) / 64 % 64 = j.val; have := j.isLt; have := k.isLt; omega
      | ⟨2, _⟩ => show (j.val * 64 + k.val) % 64 = k.val; have := j.isLt; have := k.isLt; omega)
  rw [hw]

/-- Relation 1: its column of sums, at edge `e`, is the score of `e` under relation 1 — the slice `W[1]`
    transposed is read back at (j, k), the bias slice `b[1]` at j, and the initial value of the sum is zero. -/
theorem rel1 (x0 : (⟨S100000x64, .f32⟩ : BufTy).Contents (Elt Ideal)) (x1 : (⟨S50000x64, .f32⟩ : BufTy).Contents (Elt Ideal)) (x2 x3 : (⟨S2000000, .i32⟩ : BufTy).Contents (Elt Ideal)) (x4 : (⟨S5x64x64, .f32⟩ : BufTy).Contents (Elt Ideal)) (x5 : (⟨S5x64, .f32⟩ : BufTy).Contents (Elt Ideal)) (e : Fin 2000000) :
    val_main_v35 (F := Ideal) x0 x1 x2 x3 x4 x5 (ix1 e)
      = score (val_main_v6 (F := Ideal) x0 x2) (val_main_v13 (F := Ideal) x1 x3) x4 x5 e (1 : Fin 5) := by
  rw [val_main_v35_apply]
  refine (congrArg (· + ∑ k : Fin 64, val_main_v34 (F := Ideal) x0 x1 x2 x3 x4 x5 (idx_main_v35 (ix1 e) k))
    Ideal.ofBits_zero_f32).trans ?_
  rw [zero_add]
  unfold score
  refine Finset.sum_congr rfl fun j _ => ?_
  have hi : idx_main_v35 (ix1 e) j = ix2 e j :=
    funext fun a => Fin.ext (by match a with | ⟨0, _⟩ => rfl | ⟨1, _⟩ => rfl)
  rw [hi, val_main_v34_apply, val_main_v33_apply]
  show (val_main_v28 (F := Ideal) x0 x2 x4 (ix2 e j) + val_main_v32 (F := Ideal) x5 (ix2 e j))
      * val_main_v13 (F := Ideal) x1 x3 (ix2 e j) = _
  rw [val_main_v28_apply, val_main_v32_apply, val_main_v31_apply, val_main_v30_apply, val_main_v29_apply]
  have hb : idx_main_v29 (idx_main_v30 (idx_main_v31 (idx_main_v32 (ix2 e j)))) = ix2 (1 : Fin 5) j :=
    funext fun a => Fin.ext (by
      match a with
      | ⟨0, _⟩ => rfl
      | ⟨1, _⟩ => show j.val % 64 = j.val; have := j.isLt; omega)
  rw [hb]
  refine congrArg (fun s => (s + x5 (ix2 (1 : Fin 5) j)) * val_main_v13 (F := Ideal) x1 x3 (ix2 e j)) ?_
  refine Finset.sum_congr rfl fun k _ => ?_
  have hl : lidx_main_v28 (ix2 e j) k = ix2 e k :=
    funext fun a => Fin.ext (by match a with | ⟨0, _⟩ => rfl | ⟨1, _⟩ => rfl)
  rw [hl, val_main_v27_apply, val_main_v26_apply, val_main_v25_apply]
  have hw : idx_main_v25 (idx_main_v26 (idx_main_v27 (ridx_main_v28 (ix2 e j) k))) = ix3 (1 : Fin 5) j k :=
    funext fun a => Fin.ext (by
      match a with
      | ⟨0, _⟩ => rfl
      | ⟨1, _⟩ => show (j.val * 64 + k.val) / 64 % 64 = j.val; have := j.isLt; have := k.isLt; omega
      | ⟨2, _⟩ => show (j.val * 64 + k.val) % 64 = k.val; have := j.isLt; have := k.isLt; omega)
  rw [hw]

/-- Relation 2: its column of sums, at edge `e`, is the score of `e` under relation 2 — the slice `W[2]`
    transposed is read back at (j, k), the bias slice `b[2]` at j, and the initial value of the sum is zero. -/
theorem rel2 (x0 : (⟨S100000x64, .f32⟩ : BufTy).Contents (Elt Ideal)) (x1 : (⟨S50000x64, .f32⟩ : BufTy).Contents (Elt Ideal)) (x2 x3 : (⟨S2000000, .i32⟩ : BufTy).Contents (Elt Ideal)) (x4 : (⟨S5x64x64, .f32⟩ : BufTy).Contents (Elt Ideal)) (x5 : (⟨S5x64, .f32⟩ : BufTy).Contents (Elt Ideal)) (e : Fin 2000000) :
    val_main_v46 (F := Ideal) x0 x1 x2 x3 x4 x5 (ix1 e)
      = score (val_main_v6 (F := Ideal) x0 x2) (val_main_v13 (F := Ideal) x1 x3) x4 x5 e (2 : Fin 5) := by
  rw [val_main_v46_apply]
  refine (congrArg (· + ∑ k : Fin 64, val_main_v45 (F := Ideal) x0 x1 x2 x3 x4 x5 (idx_main_v46 (ix1 e) k))
    Ideal.ofBits_zero_f32).trans ?_
  rw [zero_add]
  unfold score
  refine Finset.sum_congr rfl fun j _ => ?_
  have hi : idx_main_v46 (ix1 e) j = ix2 e j :=
    funext fun a => Fin.ext (by match a with | ⟨0, _⟩ => rfl | ⟨1, _⟩ => rfl)
  rw [hi, val_main_v45_apply, val_main_v44_apply]
  show (val_main_v39 (F := Ideal) x0 x2 x4 (ix2 e j) + val_main_v43 (F := Ideal) x5 (ix2 e j))
      * val_main_v13 (F := Ideal) x1 x3 (ix2 e j) = _
  rw [val_main_v39_apply, val_main_v43_apply, val_main_v42_apply, val_main_v41_apply, val_main_v40_apply]
  have hb : idx_main_v40 (idx_main_v41 (idx_main_v42 (idx_main_v43 (ix2 e j)))) = ix2 (2 : Fin 5) j :=
    funext fun a => Fin.ext (by
      match a with
      | ⟨0, _⟩ => rfl
      | ⟨1, _⟩ => show j.val % 64 = j.val; have := j.isLt; omega)
  rw [hb]
  refine congrArg (fun s => (s + x5 (ix2 (2 : Fin 5) j)) * val_main_v13 (F := Ideal) x1 x3 (ix2 e j)) ?_
  refine Finset.sum_congr rfl fun k _ => ?_
  have hl : lidx_main_v39 (ix2 e j) k = ix2 e k :=
    funext fun a => Fin.ext (by match a with | ⟨0, _⟩ => rfl | ⟨1, _⟩ => rfl)
  rw [hl, val_main_v38_apply, val_main_v37_apply, val_main_v36_apply]
  have hw : idx_main_v36 (idx_main_v37 (idx_main_v38 (ridx_main_v39 (ix2 e j) k))) = ix3 (2 : Fin 5) j k :=
    funext fun a => Fin.ext (by
      match a with
      | ⟨0, _⟩ => rfl
      | ⟨1, _⟩ => show (j.val * 64 + k.val) / 64 % 64 = j.val; have := j.isLt; have := k.isLt; omega
      | ⟨2, _⟩ => show (j.val * 64 + k.val) % 64 = k.val; have := j.isLt; have := k.isLt; omega)
  rw [hw]

/-- Relation 3: its column of sums, at edge `e`, is the score of `e` under relation 3 — the slice `W[3]`
    transposed is read back at (j, k), the bias slice `b[3]` at j, and the initial value of the sum is zero. -/
theorem rel3 (x0 : (⟨S100000x64, .f32⟩ : BufTy).Contents (Elt Ideal)) (x1 : (⟨S50000x64, .f32⟩ : BufTy).Contents (Elt Ideal)) (x2 x3 : (⟨S2000000, .i32⟩ : BufTy).Contents (Elt Ideal)) (x4 : (⟨S5x64x64, .f32⟩ : BufTy).Contents (Elt Ideal)) (x5 : (⟨S5x64, .f32⟩ : BufTy).Contents (Elt Ideal)) (e : Fin 2000000) :
    val_main_v57 (F := Ideal) x0 x1 x2 x3 x4 x5 (ix1 e)
      = score (val_main_v6 (F := Ideal) x0 x2) (val_main_v13 (F := Ideal) x1 x3) x4 x5 e (3 : Fin 5) := by
  rw [val_main_v57_apply]
  refine (congrArg (· + ∑ k : Fin 64, val_main_v56 (F := Ideal) x0 x1 x2 x3 x4 x5 (idx_main_v57 (ix1 e) k))
    Ideal.ofBits_zero_f32).trans ?_
  rw [zero_add]
  unfold score
  refine Finset.sum_congr rfl fun j _ => ?_
  have hi : idx_main_v57 (ix1 e) j = ix2 e j :=
    funext fun a => Fin.ext (by match a with | ⟨0, _⟩ => rfl | ⟨1, _⟩ => rfl)
  rw [hi, val_main_v56_apply, val_main_v55_apply]
  show (val_main_v50 (F := Ideal) x0 x2 x4 (ix2 e j) + val_main_v54 (F := Ideal) x5 (ix2 e j))
      * val_main_v13 (F := Ideal) x1 x3 (ix2 e j) = _
  rw [val_main_v50_apply, val_main_v54_apply, val_main_v53_apply, val_main_v52_apply, val_main_v51_apply]
  have hb : idx_main_v51 (idx_main_v52 (idx_main_v53 (idx_main_v54 (ix2 e j)))) = ix2 (3 : Fin 5) j :=
    funext fun a => Fin.ext (by
      match a with
      | ⟨0, _⟩ => rfl
      | ⟨1, _⟩ => show j.val % 64 = j.val; have := j.isLt; omega)
  rw [hb]
  refine congrArg (fun s => (s + x5 (ix2 (3 : Fin 5) j)) * val_main_v13 (F := Ideal) x1 x3 (ix2 e j)) ?_
  refine Finset.sum_congr rfl fun k _ => ?_
  have hl : lidx_main_v50 (ix2 e j) k = ix2 e k :=
    funext fun a => Fin.ext (by match a with | ⟨0, _⟩ => rfl | ⟨1, _⟩ => rfl)
  rw [hl, val_main_v49_apply, val_main_v48_apply, val_main_v47_apply]
  have hw : idx_main_v47 (idx_main_v48 (idx_main_v49 (ridx_main_v50 (ix2 e j) k))) = ix3 (3 : Fin 5) j k :=
    funext fun a => Fin.ext (by
      match a with
      | ⟨0, _⟩ => rfl
      | ⟨1, _⟩ => show (j.val * 64 + k.val) / 64 % 64 = j.val; have := j.isLt; have := k.isLt; omega
      | ⟨2, _⟩ => show (j.val * 64 + k.val) % 64 = k.val; have := j.isLt; have := k.isLt; omega)
  rw [hw]

/-- Relation 4: its column of sums, at edge `e`, is the score of `e` under relation 4 — the slice `W[4]`
    transposed is read back at (j, k), the bias slice `b[4]` at j, and the initial value of the sum is zero. -/
theorem rel4 (x0 : (⟨S100000x64, .f32⟩ : BufTy).Contents (Elt Ideal)) (x1 : (⟨S50000x64, .f32⟩ : BufTy).Contents (Elt Ideal)) (x2 x3 : (⟨S2000000, .i32⟩ : BufTy).Contents (Elt Ideal)) (x4 : (⟨S5x64x64, .f32⟩ : BufTy).Contents (Elt Ideal)) (x5 : (⟨S5x64, .f32⟩ : BufTy).Contents (Elt Ideal)) (e : Fin 2000000) :
    val_main_v68 (F := Ideal) x0 x1 x2 x3 x4 x5 (ix1 e)
      = score (val_main_v6 (F := Ideal) x0 x2) (val_main_v13 (F := Ideal) x1 x3) x4 x5 e (4 : Fin 5) := by
  rw [val_main_v68_apply]
  refine (congrArg (· + ∑ k : Fin 64, val_main_v67 (F := Ideal) x0 x1 x2 x3 x4 x5 (idx_main_v68 (ix1 e) k))
    Ideal.ofBits_zero_f32).trans ?_
  rw [zero_add]
  unfold score
  refine Finset.sum_congr rfl fun j _ => ?_
  have hi : idx_main_v68 (ix1 e) j = ix2 e j :=
    funext fun a => Fin.ext (by match a with | ⟨0, _⟩ => rfl | ⟨1, _⟩ => rfl)
  rw [hi, val_main_v67_apply, val_main_v66_apply]
  show (val_main_v61 (F := Ideal) x0 x2 x4 (ix2 e j) + val_main_v65 (F := Ideal) x5 (ix2 e j))
      * val_main_v13 (F := Ideal) x1 x3 (ix2 e j) = _
  rw [val_main_v61_apply, val_main_v65_apply, val_main_v64_apply, val_main_v63_apply, val_main_v62_apply]
  have hb : idx_main_v62 (idx_main_v63 (idx_main_v64 (idx_main_v65 (ix2 e j)))) = ix2 (4 : Fin 5) j :=
    funext fun a => Fin.ext (by
      match a with
      | ⟨0, _⟩ => rfl
      | ⟨1, _⟩ => show j.val % 64 = j.val; have := j.isLt; omega)
  rw [hb]
  refine congrArg (fun s => (s + x5 (ix2 (4 : Fin 5) j)) * val_main_v13 (F := Ideal) x1 x3 (ix2 e j)) ?_
  refine Finset.sum_congr rfl fun k _ => ?_
  have hl : lidx_main_v61 (ix2 e j) k = ix2 e k :=
    funext fun a => Fin.ext (by match a with | ⟨0, _⟩ => rfl | ⟨1, _⟩ => rfl)
  rw [hl, val_main_v60_apply, val_main_v59_apply, val_main_v58_apply]
  have hw : idx_main_v58 (idx_main_v59 (idx_main_v60 (ridx_main_v61 (ix2 e j) k))) = ix3 (4 : Fin 5) j k :=
    funext fun a => Fin.ext (by
      match a with
      | ⟨0, _⟩ => rfl
      | ⟨1, _⟩ => show (j.val * 64 + k.val) / 64 % 64 = j.val; have := j.isLt; have := k.isLt; omega
      | ⟨2, _⟩ => show (j.val * 64 + k.val) % 64 = k.val; have := j.isLt; have := k.isLt; omega)
  rw [hw]

/-- THE REFERENCE'S RESULT at (e, r): the five columns laid side by side, column `r` being relation `r`'s sums. -/
theorem result_apply (x0 : (⟨S100000x64, .f32⟩ : BufTy).Contents (Elt Ideal)) (x1 : (⟨S50000x64, .f32⟩ : BufTy).Contents (Elt Ideal)) (x2 x3 : (⟨S2000000, .i32⟩ : BufTy).Contents (Elt Ideal)) (x4 : (⟨S5x64x64, .f32⟩ : BufTy).Contents (Elt Ideal)) (x5 : (⟨S5x64, .f32⟩ : BufTy).Contents (Elt Ideal)) (e : Fin 2000000) (r : Fin 5) :
    val_main_v74 (F := Ideal) x0 x1 x2 x3 x4 x5 (ix2 e r)
      = score (val_main_v6 (F := Ideal) x0 x2) (val_main_v13 (F := Ideal) x1 x3) x4 x5 e r := by
  unfold val_main_v74
  match r with
  | ⟨0, _⟩ =>
    refine (concatenate_apply_piece (t := S2000000x5) 1
      [⟨S2000000x1, val_main_v69 (F := Ideal) x0 x1 x2 x3 x4 x5⟩, ⟨S2000000x1, val_main_v70 (F := Ideal) x0 x1 x2 x3 x4 x5⟩, ⟨S2000000x1, val_main_v71 (F := Ideal) x0 x1 x2 x3 x4 x5⟩, ⟨S2000000x1, val_main_v72 (F := Ideal) x0 x1 x2 x3 x4 x5⟩, ⟨S2000000x1, val_main_v73 (F := Ideal) x0 x1 x2 x3 x4 x5⟩]
      concatenates_S2000000x1_S2000000x1_S2000000x1_S2000000x1_S2000000x1_S2000000x5_d1
      (ix2 e (⟨0, by decide⟩ : Fin 5)) 0 (by show (0 : Nat) < 5; omega) S2000000x1 (val_main_v69 (F := Ideal) x0 x1 x2 x3 x4 x5) rfl rfl 0 rfl
      (ix2 e (0 : Fin 1)) (fun b hb => match b with | ⟨0, _⟩ => rfl | ⟨1, _⟩ => absurd rfl hb) rfl).trans ?_
    rw [val_main_v69_apply]
    have hi : idx_main_v69 (ix2 e (0 : Fin 1)) = ix1 e := funext fun a => Fin.ext (by match a with | ⟨0, _⟩ => rfl)
    rw [hi]
    exact rel0 x0 x1 x2 x3 x4 x5 e
  | ⟨1, _⟩ =>
    refine (concatenate_apply_piece (t := S2000000x5) 1
      [⟨S2000000x1, val_main_v69 (F := Ideal) x0 x1 x2 x3 x4 x5⟩, ⟨S2000000x1, val_main_v70 (F := Ideal) x0 x1 x2 x3 x4 x5⟩, ⟨S2000000x1, val_main_v71 (F := Ideal) x0 x1 x2 x3 x4 x5⟩, ⟨S2000000x1, val_main_v72 (F := Ideal) x0 x1 x2 x3 x4 x5⟩, ⟨S2000000x1, val_main_v73 (F := Ideal) x0 x1 x2 x3 x4 x5⟩]
      concatenates_S2000000x1_S2000000x1_S2000000x1_S2000000x1_S2000000x1_S2000000x5_d1
      (ix2 e (⟨1, by decide⟩ : Fin 5)) 1 (by show (1 : Nat) < 5; omega) S2000000x1 (val_main_v70 (F := Ideal) x0 x1 x2 x3 x4 x5) rfl rfl 1 rfl
      (ix2 e (0 : Fin 1)) (fun b hb => match b with | ⟨0, _⟩ => rfl | ⟨1, _⟩ => absurd rfl hb) rfl).trans ?_
    rw [val_main_v70_apply]
    have hi : idx_main_v70 (ix2 e (0 : Fin 1)) = ix1 e := funext fun a => Fin.ext (by match a with | ⟨0, _⟩ => rfl)
    rw [hi]
    exact rel1 x0 x1 x2 x3 x4 x5 e
  | ⟨2, _⟩ =>
    refine (concatenate_apply_piece (t := S2000000x5) 1
      [⟨S2000000x1, val_main_v69 (F := Ideal) x0 x1 x2 x3 x4 x5⟩, ⟨S2000000x1, val_main_v70 (F := Ideal) x0 x1 x2 x3 x4 x5⟩, ⟨S2000000x1, val_main_v71 (F := Ideal) x0 x1 x2 x3 x4 x5⟩, ⟨S2000000x1, val_main_v72 (F := Ideal) x0 x1 x2 x3 x4 x5⟩, ⟨S2000000x1, val_main_v73 (F := Ideal) x0 x1 x2 x3 x4 x5⟩]
      concatenates_S2000000x1_S2000000x1_S2000000x1_S2000000x1_S2000000x1_S2000000x5_d1
      (ix2 e (⟨2, by decide⟩ : Fin 5)) 2 (by show (2 : Nat) < 5; omega) S2000000x1 (val_main_v71 (F := Ideal) x0 x1 x2 x3 x4 x5) rfl rfl 2 rfl
      (ix2 e (0 : Fin 1)) (fun b hb => match b with | ⟨0, _⟩ => rfl | ⟨1, _⟩ => absurd rfl hb) rfl).trans ?_
    rw [val_main_v71_apply]
    have hi : idx_main_v71 (ix2 e (0 : Fin 1)) = ix1 e := funext fun a => Fin.ext (by match a with | ⟨0, _⟩ => rfl)
    rw [hi]
    exact rel2 x0 x1 x2 x3 x4 x5 e
  | ⟨3, _⟩ =>
    refine (concatenate_apply_piece (t := S2000000x5) 1
      [⟨S2000000x1, val_main_v69 (F := Ideal) x0 x1 x2 x3 x4 x5⟩, ⟨S2000000x1, val_main_v70 (F := Ideal) x0 x1 x2 x3 x4 x5⟩, ⟨S2000000x1, val_main_v71 (F := Ideal) x0 x1 x2 x3 x4 x5⟩, ⟨S2000000x1, val_main_v72 (F := Ideal) x0 x1 x2 x3 x4 x5⟩, ⟨S2000000x1, val_main_v73 (F := Ideal) x0 x1 x2 x3 x4 x5⟩]
      concatenates_S2000000x1_S2000000x1_S2000000x1_S2000000x1_S2000000x1_S2000000x5_d1
      (ix2 e (⟨3, by decide⟩ : Fin 5)) 3 (by show (3 : Nat) < 5; omega) S2000000x1 (val_main_v72 (F := Ideal) x0 x1 x2 x3 x4 x5) rfl rfl 3 rfl
      (ix2 e (0 : Fin 1)) (fun b hb => match b with | ⟨0, _⟩ => rfl | ⟨1, _⟩ => absurd rfl hb) rfl).trans ?_
    rw [val_main_v72_apply]
    have hi : idx_main_v72 (ix2 e (0 : Fin 1)) = ix1 e := funext fun a => Fin.ext (by match a with | ⟨0, _⟩ => rfl)
    rw [hi]
    exact rel3 x0 x1 x2 x3 x4 x5 e
  | ⟨4, _⟩ =>
    refine (concatenate_apply_piece (t := S2000000x5) 1
      [⟨S2000000x1, val_main_v69 (F := Ideal) x0 x1 x2 x3 x4 x5⟩, ⟨S2000000x1, val_main_v70 (F := Ideal) x0 x1 x2 x3 x4 x5⟩, ⟨S2000000x1, val_main_v71 (F := Ideal) x0 x1 x2 x3 x4 x5⟩, ⟨S2000000x1, val_main_v72 (F := Ideal) x0 x1 x2 x3 x4 x5⟩, ⟨S2000000x1, val_main_v73 (F := Ideal) x0 x1 x2 x3 x4 x5⟩]
      concatenates_S2000000x1_S2000000x1_S2000000x1_S2000000x1_S2000000x1_S2000000x5_d1
      (ix2 e (⟨4, by decide⟩ : Fin 5)) 4 (by show (4 : Nat) < 5; omega) S2000000x1 (val_main_v73 (F := Ideal) x0 x1 x2 x3 x4 x5) rfl rfl 4 rfl
      (ix2 e (0 : Fin 1)) (fun b hb => match b with | ⟨0, _⟩ => rfl | ⟨1, _⟩ => absurd rfl hb) rfl).trans ?_
    rw [val_main_v73_apply]
    have hi : idx_main_v73 (ix2 e (0 : Fin 1)) = ix1 e := funext fun a => Fin.ext (by match a with | ⟨0, _⟩ => rfl)
    rw [hi]
    exact rel4 x0 x1 x2 x3 x4 x5 e

end Cert.ReferenceIdeal.RefValue

end
-- ==== Proof.lean ====
/-
  Five relations score every edge of a bipartite graph: with `eu e`, `ei e` the feature rows of edge `e`'s user
  and item (gathered from the two tables at the edge's endpoints), `W r` relation `r`'s 64 × 64 matrix and
  `b r` its bias row,

      out e r = ∑ j, ((∑ k, eu e k * W r j k) + b r j) * ei e j .

  The reference computes this relation by relation with whole-array operations.  The kernel's program gathers
  the same rows, lays the five transposed matrices side by side as one 64 × 320 matrix and the five bias rows as
  one 1 × 320 row, and a pallas_call over 125 blocks of 16000 edges forms, chunk of 3200 edges by chunk, the
  fused product plus bias and, per relation, the row sums of its 64-column slab against the item rows; the
  [5, edges] result is transposed at the end.  On the extended reals both are the displayed sum, term for term:
  nothing is rearranged beyond reading the stacked layouts back (column 64 r + j of the stacked matrix is row j
  of `W r`) and dropping the zero a sum starts from, so no finiteness of the inputs is used.

  The modules: Score (the sum), Chunk and Block (the body's arithmetic on a chunk, and its 25 stores as one
  function of the block), KernelArray (blocks to the output array), KernelHost (the arrays the region stages,
  and the closing transpose), KernelValue (the kernel's run), RefValue (the reference read at an index).  The
  three frames are the generated ones; the idealization rewrote nothing, so `preserves` is `True`.
-/
import proofs.«153297_j80315888435313_2_alg».proof.Defs
import proofs.«153297_j80315888435313_2_alg».proof.Proof.Gen.Kernel
import proofs.«153297_j80315888435313_2_alg».proof.Proof.Gen.Kernel.Skeleton
import proofs.«153297_j80315888435313_2_alg».proof.Proof.Gen.Kernel.Launch
import proofs.«153297_j80315888435313_2_alg».proof.Proof.Gen.Kernel.Points
import proofs.«153297_j80315888435313_2_alg».proof.Proof.Gen.Kernel.Frame
import proofs.«153297_j80315888435313_2_alg».proof.Proof.Gen.KernelIdeal
import proofs.«153297_j80315888435313_2_alg».proof.Proof.Gen.KernelIdeal.Skeleton
import proofs.«153297_j80315888435313_2_alg».proof.Proof.Gen.KernelIdeal.Launch
import proofs.«153297_j80315888435313_2_alg».proof.Proof.Gen.KernelIdeal.Points
import proofs.«153297_j80315888435313_2_alg».proof.Proof.Gen.KernelIdeal.Frame
import proofs.«153297_j80315888435313_2_alg».proof.Proof.Gen.ReferenceIdeal
import proofs.«153297_j80315888435313_2_alg».proof.Proof.Gen.ReferenceIdeal.Run
import proofs.«153297_j80315888435313_2_alg».proof.Proof.Gen.ReferenceIdeal.Read
import proofs.«153297_j80315888435313_2_alg».proof.Proof.Gen.Pre_finite_inputs
import proofs.«153297_j80315888435313_2_alg».proof.Proof.KernelValue
import proofs.«153297_j80315888435313_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.RelScore

/-- The user rows the kernel's program gathers are the reference's: the same gather at the same wrapped
    indices, from a table that narrowing to bf16 leaves unchanged on the extended reals. -/
theorem users_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v7 : Cert.KernelIdeal.S2000000x64.Idx → EReal)
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  rw [Cert.KernelIdeal.HostSide.V_v7]
  rfl

/-- The item rows likewise. -/
theorem items_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v14 : Cert.KernelIdeal.S2000000x64.Idx → EReal)
      = Cert.ReferenceIdeal.Read.val_main_v13 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)) := by
  rw [Cert.KernelIdeal.HostSide.V_v14]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the scores over the same gathered rows. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v74_eq, a0, a1, a2, a3, a4, a5]
  funext i
  obtain ⟨e, r, rfl⟩ : ∃ (e : Fin 2000000) (r : Fin 5), i = ix2 e r := ⟨i 0, i 1, eq_ix2 i⟩
  rw [Cert.ReferenceIdeal.RefValue.result_apply, ← users_eq m c, ← items_eq m c]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
